-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x10000x32x64 : Shape := ⟨4, ![4, 10000, 32, 64]⟩
abbrev S64x128 : Shape := ⟨2, ![64, 128]⟩
abbrev S64 : Shape := ⟨1, ![64]⟩
abbrev S_ : Shape := ⟨0, ![]⟩

class Facts : Prop where
  bcast_S_S4x10000x32x64 : S_.BroadcastsInDim S4x10000x32x64 (![] : Fin 0 → Fin S4x10000x32x64.rank)
  reducesTo_S4x10000x32x64_S_d0_1_2_3 : S4x10000x32x64.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x10000x32x64 .f32) (main_arg1 : FVec F S64x128 .f32) (main_arg2 : FVec F S64 .f32) : IVec S_ 1 :=
  let main_v0 : FVec F S4x10000x32x64 .f32 := Host.absf main_arg0
  let main_cst : FVec F S_ .f32 := constant S_ .f32 0x7F800000#32
  let main_v1 : FVec F S4x10000x32x64 .f32 := broadcastInDim S4x10000x32x64 ![] bcast_S_S4x10000x32x64 main_cst
  let main_v2 : IVec S4x10000x32x64 1 := cmpf .olt main_v0 main_v1
  let main_c : IVec S_ 1 := constantI S_ 1 1#1
  let main_v3 : IVec S_ 1 := (fun x v => Host.reduce IntOp.andi x v reducesTo_S4x10000x32x64_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x10000x32x64 : Shape := ⟨4, ![4, 10000, 32, 64]⟩
abbrev S64x128 : Shape := ⟨2, ![64, 128]⟩
abbrev S64 : Shape := ⟨1, ![64]⟩
abbrev S64x64 : Shape := ⟨2, ![64, 64]⟩
abbrev S4x1x10000x64 : Shape := ⟨4, ![4, 1, 10000, 64]⟩
abbrev S1x1000x32x64 : Shape := ⟨4, ![1, 1000, 32, 64]⟩
abbrev S1x1x1000x64 : Shape := ⟨4, ![1, 1, 1000, 64]⟩
abbrev S1000x32x64 : Shape := ⟨3, ![1000, 32, 64]⟩
abbrev S1000x1x64 : Shape := ⟨3, ![1000, 1, 64]⟩
abbrev S1000x64 : Shape := ⟨2, ![1000, 64]⟩
abbrev S32000x64 : Shape := ⟨2, ![32000, 64]⟩
abbrev S1x1x64 : Shape := ⟨3, ![1, 1, 64]⟩

abbrev nBuf : Space → Nat
  | .hbm => 9
  | .vmem => 7
  | .smem => 0
  | _ => 0

abbrev bufTy : (tb : Table) → Fin (tcTables nBuf tb) → BufTy
  | .hbm, ⟨0, _⟩ => ⟨S4x10000x32x64, .f32⟩
  | .hbm, ⟨1, _⟩ => ⟨S64x128, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S4x1x10000x64, .f32⟩
  | .local _ .vmem, ⟨0, _⟩ => ⟨S1x1000x32x64, .f32⟩
  | .local _ .vmem, ⟨1, _⟩ => ⟨S1x1000x32x64, .f32⟩
  | .local _ .vmem, ⟨2, _⟩ => ⟨S64x64, .f32⟩
  | .local _ .vmem, ⟨3, _⟩ => ⟨S64x64, .f32⟩
  | .local _ .vmem, ⟨4, _⟩ => ⟨S64, .f32⟩
  | .local _ .vmem, ⟨5, _⟩ => ⟨S1x1x1000x64, .f32⟩
  | .local _ .vmem, ⟨6, _⟩ => ⟨S1x1x1000x64, .f32⟩
  | _, _ => ⟨S4x10000x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 10], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1000x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S64x128_S64x64_0_0 : S64x128.Slices ![0, 0] S64x64
  slices_S64x128_S64x64_0_64 : S64x128.Slices ![0, 64] S64x64
  transposes_S64x64_S64x64_1_0 : S64x64.Transposes [1, 0] S64x64
  inb_S1x1000x32x64_S1x1000x32x64_0_0_0_0 : ∀ a, (![0, 0, 0, 0] : Fin 4 → Nat) a + S1x1000x32x64.size a ≤ S1x1000x32x64.size a
  h_S1x1000x32x64 : 0 < S1x1000x32x64.numel
  shapeCasts_S1x1000x32x64_S1000x32x64 : S1x1000x32x64.ShapeCasts S1000x32x64
  slices_S1000x32x64_o0_0_0_S1000x1x64 : S1000x32x64.Slices ![0, 0, 0] S1000x1x64
  shapeCasts_S1000x1x64_S1000x64 : S1000x1x64.ShapeCasts S1000x64
  shapeCasts_S1000x32x64_S32000x64 : S1000x32x64.ShapeCasts S32000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S32000x64_S1000x32x64 : S32000x64.ShapeCasts S1000x32x64
  shapeCasts_S1000x64_S1000x1x64 : S1000x64.ShapeCasts S1000x1x64
  broadcasts_S1000x1x64_S1000x32x64 : S1000x1x64.Broadcasts S1000x32x64
  inb_S64_S64_0 : ∀ a, (![0] : Fin 1 → Nat) a + S64.size a ≤ S64.size a
  h_S64 : 0 < S64.numel
  shapeCasts_S64_S1x1x64 : S64.ShapeCasts S1x1x64
  broadcasts_S1x1x64_S1000x32x64 : S1x1x64.Broadcasts S1000x32x64
  reduces_S1000x32x64_S1000x64 : S1000x32x64.Reduces [1] S1000x64
  shapeCasts_S1000x64_S1x1x1000x64 : S1000x64.ShapeCasts S1x1x1000x64
  inb_S1x1x1000x64_S1x1x1000x64_0_0_0_0 : ∀ a, (![0, 0, 0, 0] : Fin 4 → Nat) a + S1x1x1000x64.size a ≤ S1x1x1000x64.size a
  h_S1x1x1000x64 : 0 < S1x1x1000x64.numel
  dot_S32000x64_S64x64_S32000x64_1_0_0_1_n_n_wf : DotDims.WF S32000x64 S64x64 S32000x64 [1] [0] [0] [1] [] []
  dot_S1000x64_S64x64_S1000x64_1_0_0_1_n_n_wf : DotDims.WF S1000x64 S64x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x32x64.size a ≤ S4x10000x32x64.size a
  hwx0_0 : ∀ i : grid0.Coords, EltTy.bits .f32 = 32 ∨ (Rect.block (s := S4x10000x32x64) S1x1000x32x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1000x64.size a ≤ S4x1x10000x64.size a
  hwx0_4 : ∀ i : grid0.Coords, EltTy.bits .f32 = 32 ∨ (Rect.block (s := S4x1x10000x64) S1x1x1000x64.size (cc0_transform_4 i) (hinb0_4 i)).WholeWords (EltTy.packing .f32)

variable [Facts₀]

def dot_S32000x64_S64x64_S32000x64_1_0_0_1_n_n : DotDims S32000x64 S64x64 S32000x64 where
  lhsContracting := [1]
  rhsContracting := [0]
  lhsNonContracting := [0]
  rhsNonContracting := [1]
  lhsBatch := []
  rhsBatch := []
  wf := dot_S32000x64_S64x64_S32000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf

abbrev win0_0 : Pipeline.Window sig grid0 :=
  Pipeline.Window.ofSpec (Memref.whole main_arg0) S1x1000x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x1000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x10000x32x64 : Shape := ⟨4, ![4, 10000, 32, 64]⟩
abbrev S64x128 : Shape := ⟨2, ![64, 128]⟩
abbrev S64 : Shape := ⟨1, ![64]⟩
abbrev S4x10000x1x64 : Shape := ⟨4, ![4, 10000, 1, 64]⟩
abbrev S4x10000x32x128 : Shape := ⟨4, ![4, 10000, 32, 128]⟩
abbrev S1x1x1x64 : Shape := ⟨4, ![1, 1, 1, 64]⟩
abbrev S_ : Shape := ⟨0, ![]⟩
abbrev S4x10000x64 : Shape := ⟨3, ![4, 10000, 64]⟩
abbrev S4x1x10000x64 : Shape := ⟨4, ![4, 1, 10000, 64]⟩

abbrev nBuf : Space → Nat
  | .hbm => 21
  | .vmem => 0
  | .smem => 0
  | _ => 0

abbrev bufTy : (tb : Table) → Fin (tcTables nBuf tb) → BufTy
  | .hbm, ⟨0, _⟩ => ⟨S4x10000x32x64, .f32⟩
  | .hbm, ⟨1, _⟩ => ⟨S64x128, .f32⟩
  | .hbm, ⟨2, _⟩ => ⟨S64, .f32⟩
  | .hbm, ⟨3, _⟩ => ⟨S4x10000x1x64, .f32⟩
  | .hbm, ⟨4, _⟩ => ⟨S4x10000x32x64, .f32⟩
  | .hbm, ⟨5, _⟩ => ⟨S4x10000x32x64, .f32⟩
  | .hbm, ⟨6, _⟩ => ⟨S4x10000x32x128, .f32⟩
  | .hbm, ⟨7, _⟩ => ⟨S4x10000x32x64, .f32⟩
  | .hbm, ⟨8, _⟩ => ⟨S1x1x1x64, .f32⟩
  | .hbm, ⟨9, _⟩ => ⟨S4x10000x32x64, .f32⟩
  | .hbm, ⟨10, _⟩ => ⟨S4x10000x32x64, .f32⟩
  | .hbm, ⟨11, _⟩ => ⟨S_, .f32⟩
  | .hbm, ⟨12, _⟩ => ⟨S4x10000x32x64, .f32⟩
  | .hbm, ⟨13, _⟩ => ⟨S4x10000x32x64, .i1⟩
  | .hbm, ⟨14, _⟩ => ⟨S_, .f32⟩
  | .hbm, ⟨15, _⟩ => ⟨S4x10000x32x64, .f32⟩
  | .hbm, ⟨16, _⟩ => ⟨S4x10000x32x64, .f32⟩
  | .hbm, ⟨17, _⟩ => ⟨S4x10000x32x64, .f32⟩
  | .hbm, ⟨18, _⟩ => ⟨S_, .f32⟩
  | .hbm, ⟨19, _⟩ => ⟨S4x10000x64, .f32⟩
  | .hbm, ⟨20, _⟩ => ⟨S4x1x10000x64, .f32⟩
  | _, _ => ⟨S4x10000x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  slices_S4x10000x32x64_S4x10000x1x64_0_0_0_0 : S4x10000x32x64.Slices ![0, 0, 0, 0] S4x10000x1x64
  bcast_S4x10000x1x64_S4x10000x32x64_0_1_2_3 : S4x10000x1x64.BroadcastsInDim S4x10000x32x64 (![0, 1, 2, 3] : Fin 4 → Fin S4x10000x32x64.rank)
  concatenates_S4x10000x32x64_S4x10000x32x64_S4x10000x32x128_d3 : Shape.Concatenates [S4x10000x32x64, S4x10000x32x64] S4x10000x32x128 3
  bcast_S64_S1x1x1x64_3 : S64.BroadcastsInDim S1x1x1x64 (![3] : Fin 1 → Fin S1x1x1x64.rank)
  bcast_S1x1x1x64_S4x10000x32x64_0_1_2_3 : S1x1x1x64.BroadcastsInDim S4x10000x32x64 (![0, 1, 2, 3] : Fin 4 → Fin S4x10000x32x64.rank)
  bcast_S_S4x10000x32x64 : S_.BroadcastsInDim S4x10000x32x64 (![] : Fin 0 → Fin S4x10000x32x64.rank)
  reducesTo_S4x10000x32x64_S4x10000x64_d2 : S4x10000x32x64.ReducesTo [2] S4x10000x64
  h_S_ : 0 < S_.numel
  bcast_S4x10000x64_S4x1x10000x64_0_2_3 : S4x10000x64.BroadcastsInDim S4x1x10000x64 (![0, 2, 3] : Fin 3 → Fin S4x1x10000x64.rank)
  dot_S4x10000x32x128_S64x128_S4x10000x32x64_3_1_012_0_n_n_wf : DotDims.WF S4x10000x32x128 S64x128 S4x10000x32x64 [3] [1] [0, 1, 2] [0] [] []

variable [Facts₀]

def dot_S4x10000x32x128_S64x128_S4x10000x32x64_3_1_012_0_n_n : DotDims S4x10000x32x128 S64x128 S4x10000x32x64 where
  lhsContracting := [3]
  rhsContracting := [1]
  lhsNonContracting := [0, 1, 2]
  rhsNonContracting := [0]
  lhsBatch := []
  rhsBatch := []
  wf := dot_S4x10000x32x128_S64x128_S4x10000x32x64_3_1_012_0_n_n_wf

class Facts : Prop extends Facts₀ where

variable [Facts]
-- ==== Proof.Spec.lean ====
/-
  The function both programs compute, stated once over plain index types.

  For a point (b, n) with 32 neighbour rows x[b, n, h, :] (row 0 the centre), a 64 × 128 weight matrix W = [W₁ | W₂]
  and a bias, the edge feature of neighbour h is the concatenation [x_h − x_0, x_h]; its image under W plus the
  bias is the pre-activation
      y_h[o] = Σ_c (x_h[c] − x_0[c]) · W₁[o, c] + Σ_c x_h[c] · W₂[o, c] + bias[o]          (`splitPre`)
  and the result is the maximum over h of the leaky rectifier of y_h[o], starting from −∞.
  Over the reals the same number is
      y_h[o] = Σ_c x_h[c] · (W₁[o, c] + W₂[o, c]) − Σ_c x_0[c] · W₁[o, c] + bias[o]          (`fusedPre`)
  by distributivity. On the extended reals distributivity fails at the infinities, so the identity
  (`splitPre_eq_fusedPre`) is stated for entries that are real numbers.
-/
import Idealize.ShloMosaic.PureOps.Ideal
import Idealize.ShloMosaic.PureOps.Ideal.Laws
import Idealize.ShloMosaic.Lib.ValueIdx

noncomputable section

namespace Cert.EdgeMax

open Idealize.ShloMosaic Idealize.ShloMosaic.ValueIdx

/-- The leaky rectifier as both programs spell it: `y` where `y ≥ 0`, the slope literal times `y` elsewhere. -/
def leaky (y : EReal) : EReal :=
  Scalar.select (FloatOps.cmpf (F := Ideal) (φ := .f32) .oge y (Ideal.ofBits .f32 0x00000000#32)) y
    (Ideal.ofBits .f32 0x3E4CCCCD#32 * y)

/-- The maximum over the 32 neighbours, folded from the pattern of −∞. -/
def nbrMax (f : Fin 32 → EReal) : EReal :=
  (Finset.univ : Finset (Fin 32)).fold max (Ideal.ofBits .f32 0xFF800000#32) f

/-- Column `c` of the left half `W₁` of the weight matrix. -/
abbrev lo (c : Fin 64) : Fin 128 := ⟨c.val, by have := c.isLt; omega⟩
/-- Column `c` of the right half `W₂`. -/
abbrev hi (c : Fin 64) : Fin 128 := ⟨64 + c.val, by have := c.isLt; omega⟩

abbrev XIdx := (⟨4, ![4, 10000, 32, 64]⟩ : Shape).Idx
abbrev WIdx := (⟨2, ![64, 128]⟩ : Shape).Idx
abbrev BIdx := (⟨1, ![64]⟩ : Shape).Idx
abbrev OIdx := (⟨4, ![4, 1, 10000, 64]⟩ : Shape).Idx

/-- The pre-activation with the weights fused: `x_h · (W₁ + W₂) − x_0 · W₁ + bias`. -/
def fusedPre (X : XIdx → EReal) (W : WIdx → EReal) (B : BIdx → EReal) (b : Fin 4) (n : Fin 10000) (o : Fin 64) (h : Fin 32) : EReal :=
  ((∑ c : Fin 64, X (ix4 b n h c) * (W (ix2 o (lo c)) + W (ix2 o (hi c))))
      - ∑ c : Fin 64, X (ix4 b n (0 : Fin 32) c) * W (ix2 o (lo c)))
    + B (ix1 o)

/-- The pre-activation as the edge feature `[x_h − x_0, x_h]` times `[W₁ | W₂]`, half by half. -/
def splitPre (X : XIdx → EReal) (W : WIdx → EReal) (B : BIdx → EReal) (b : Fin 4) (n : Fin 10000) (o : Fin 64) (h : Fin 32) : EReal :=
  ((∑ c : Fin 64, (X (ix4 b n h c) - X (ix4 b n (0 : Fin 32) c)) * W (ix2 o (lo c)))
      + ∑ c : Fin 64, X (ix4 b n h c) * W (ix2 o (hi c)))
    + B (ix1 o)

/-- The result array: at (b, 0, n, o) the maximum over the neighbours of the rectified pre-activation. -/
def result (X : XIdx → EReal) (W : WIdx → EReal) (B : BIdx → EReal) : OIdx → EReal :=
  fun i => nbrMax fun h => leaky (fusedPre X W B (i 0) (i 2) (i 3) h)

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the 128 columns of `W` is the sum over the left half plus the sum over the right half. -/
theorem sum_halves (f : Fin 128 → EReal) : ∑ k : Fin 128, f k = (∑ c : Fin 64, f (lo c)) + ∑ c : Fin 64, f (hi c) :=
  (Fin.sum_univ_add (a := 64) (b := 64) f).trans
    (congrArg₂ (· + ·) (Finset.sum_congr rfl fun c _ => rfl) (Finset.sum_congr rfl fun c _ => rfl))

/-- Distributivity over real rows: `Σ (x_h − x_0)·w₁ + Σ x_h·w₂ = Σ x_h·(w₁ + w₂) − Σ x_0·w₁`. -/
theorem split_eq_fused (xh x0 w1 w2 : Fin 64 → ℝ) :
    (∑ c : Fin 64, ((xh c : EReal) - (x0 c : EReal)) * (w1 c : EReal)) + ∑ c : Fin 64, (xh c : EReal) * (w2 c : EReal)
      = (∑ c : Fin 64, (xh c : EReal) * ((w1 c : EReal) + (w2 c : EReal))) - ∑ c : Fin 64, (x0 c : EReal) * (w1 c : EReal) := by
  simp only [← EReal.coe_add, ← EReal.coe_mul, ← EReal.coe_sub, ← coe_sum]
  refine congrArg _ ?_
  simp only [mul_add, sub_mul, Finset.sum_add_distrib, Finset.sum_sub_distrib]
  ring

/-- For real entries of `x` and `W` the two spellings of the pre-activation agree (the bias may be any extended real:
    it is added last on both sides). -/
theorem splitPre_eq_fusedPre (X : XIdx → EReal) (W : WIdx → EReal) (B : BIdx → EReal)
    (hX : ∀ i, ∃ r : ℝ, X i = r) (hW : ∀ i, ∃ r : ℝ, W i = r) (b : Fin 4) (n : Fin 10000) (o : Fin 64) (h : Fin 32) :
    splitPre X W B b n o h = fusedPre X W B b n o h := by
  obtain ⟨xr, hxr⟩ : ∃ xr : XIdx → ℝ, ∀ i, X i = xr i := ⟨fun i => (hX i).choose, fun i => (hX i).choose_spec⟩
  obtain ⟨wr, hwr⟩ : ∃ wr : WIdx → ℝ, ∀ i, W i = wr i := ⟨fun i => (hW i).choose, fun i => (hW i).choose_spec⟩
  unfold splitPre fusedPre
  simp only [hxr, hwr]
  rw [split_eq_fused (fun c => xr (ix4 b n h c)) (fun c => xr (ix4 b n (0 : Fin 32) c)) (fun c => wr (ix2 o (lo c)))
    (fun c => wr (ix2 o (hi c)))]

end Cert.EdgeMax

end
-- ==== Proof.KernelBody.lean ====
/-
  What the kernel's body stores, read at one entry.

  The body holds a block of 1000 points × 32 neighbours × 64 features, the two 64 × 64 weight blocks
  (row c, column o: the fused weight (W₁ + W₂)[o, c] and W₁[o, c]) and the bias. It multiplies the 32000 neighbour rows by the first
  block, the 1000 centre rows (neighbour 0) by the second, subtracts the centre's product from each of its
  neighbours', adds the bias, rectifies, and takes the maximum over the neighbours. Entry (r, o) of what it stores is
  therefore the maximum over h of the rectified
      Σ_c x[r, h, c] · A[c, o] − Σ_c x[r, 0, c] · C[c, o] + bias[o].
-/
import proofs.«118309_j57002805952868_2_alg».proof.Proof.Gen.KernelIdeal.Skeleton
import proofs.«118309_j57002805952868_2_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.EdgeMax

variable (x0 : FVec Ideal S1x1000x32x64 .f32) (x1 x2 : FVec Ideal S64x64 .f32) (x3 : FVec Ideal S64 .f32)

/-- The pre-activations of the block: neighbours' products minus the centre's, plus the bias. -/
def preVec : FVec Ideal S1000x32x64 .f32 :=
  addf
    (subf
      (shapeCast S1000x32x64
        (matmul dot_S32000x64_S64x64_S32000x64_1_0_0_1_n_n none
          (shapeCast S32000x64 (shapeCast S1000x32x64 x0 shapeCasts_S1x1000x32x64_S1000x32x64) shapeCasts_S1000x32x64_S32000x64)
          (shapeCast S64x64 x1 shapeCasts_S64x64_S64x64) (constant S32000x64 .f32 0x00000000#32))
        shapeCasts_S32000x64_S1000x32x64)
      (broadcastTo S1000x32x64
        (shapeCast S1000x1x64
          (matmul dot_S1000x64_S64x64_S1000x64_1_0_0_1_n_n none
            (shapeCast S1000x64
              (extractStridedSlice S1000x1x64 ![0, 0, 0] (shapeCast S1000x32x64 x0 shapeCasts_S1x1000x32x64_S1000x32x64)
                slices_S1000x32x64_o0_0_0_S1000x1x64)
              shapeCasts_S1000x1x64_S1000x64)
            (shapeCast S64x64 x2 shapeCasts_S64x64_S64x64) (constant S1000x64 .f32 0x00000000#32))
          shapeCasts_S1000x64_S1000x1x64)
        broadcasts_S1000x1x64_S1000x32x64))
    (broadcastTo S1000x32x64 (shapeCast S1x1x64 x3 shapeCasts_S64_S1x1x64) broadcasts_S1x1x64_S1000x32x64)

/-- The payload is the neighbour maximum of the rectified pre-activations, laid out as the output block. -/
theorem pay_eq : k0_pay1 x0 x1 x2 x3
    = shapeCast S1x1x1000x64
        (multiReduction .maximumf [1] S1000x64
          (select (cmpf .oge (preVec x0 x1 x2 x3) (broadcast S1000x32x64 (Scalar.ofBits .f32 0x00000000#32)))
            (preVec x0 x1 x2 x3)
            (mulf (broadcast S1000x32x64 (Scalar.ofBits .f32 0x3E4CCCCD#32)) (preVec x0 x1 x2 x3)))
          0xFF800000#32 reduces_S1000x32x64_S1000x64 (.inl rfl) rfl)
        shapeCasts_S1000x64_S1x1x1000x64 := rfl

/-! ## The two matrix products at an entry -/

theorem nbrDot_lhs0 (j : S32000x64.Idx) (q : dot_S32000x64_S64x64_S32000x64_1_0_0_1_n_n.contr.Idx) :
    (dot_S32000x64_S64x64_S32000x64_1_0_0_1_n_n.lhsIdx j q 0).val = (j 0).val := by
  unfold DotDims.lhsIdx
  rw [dif_neg (show ¬(0 : Fin S32000x64.rank) ∈ dot_S32000x64_S64x64_S32000x64_1_0_0_1_n_n.lhsBatch by decide),
    dif_pos (show (0 : Fin S32000x64.rank) ∈ dot_S32000x64_S64x64_S32000x64_1_0_0_1_n_n.lhsNonContracting by decide)]
  rfl
theorem nbrDot_lhs1 (j : S32000x64.Idx) (q : dot_S32000x64_S64x64_S32000x64_1_0_0_1_n_n.contr.Idx) :
    (dot_S32000x64_S64x64_S32000x64_1_0_0_1_n_n.lhsIdx j q 1).val = (q ⟨0, by decide⟩).val :=
  dot_S32000x64_S64x64_S32000x64_1_0_0_1_n_n.lhsIdx_val_of_single rfl j q
theorem nbrDot_rhs0 (j : S32000x64.Idx) (q : dot_S32000x64_S64x64_S32000x64_1_0_0_1_n_n.contr.Idx) :
    (dot_S32000x64_S64x64_S32000x64_1_0_0_1_n_n.rhsIdx j q 0).val = (q ⟨0, by decide⟩).val :=
  dot_S32000x64_S64x64_S32000x64_1_0_0_1_n_n.rhsIdx_val_of_single rfl j q
theorem nbrDot_rhs1 (j : S32000x64.Idx) (q : dot_S32000x64_S64x64_S32000x64_1_0_0_1_n_n.contr.Idx) :
    (dot_S32000x64_S64x64_S32000x64_1_0_0_1_n_n.rhsIdx j q 1).val = (j 1).val := by
  unfold DotDims.rhsIdx
  rw [dif_neg (show ¬(1 : Fin S64x64.rank) ∈ dot_S32000x64_S64x64_S32000x64_1_0_0_1_n_n.rhsBatch by decide),
    dif_pos (show (1 : Fin S64x64.rank) ∈ dot_S32000x64_S64x64_S32000x64_1_0_0_1_n_n.rhsNonContracting by decide)]
  rfl

/-- The neighbours' product: row `q`, column `o` of the 32000 × 64 by 64 × 64 product into zero is the sum over the
    64 features. -/
theorem nbrDot_apply (a : FVec Ideal S32000x64 .f32) (w : FVec Ideal S64x64 .f32) (q : Fin 32000) (o : Fin 64) :
    matmul dot_S32000x64_S64x64_S32000x64_1_0_0_1_n_n none a w (constant S32000x64 .f32 0x00000000#32) (ix2 q o)
      = ∑ c : Fin 64, a (ix2 q c) * w (ix2 c o) := by
  simp only [matmul]
  refine (Ideal.matmul_constant_zero_apply dot_S32000x64_S64x64_S32000x64_1_0_0_1_n_n none a w (ix2 q o)).trans ?_
  rw [← Equiv.sum_comp (contrEquiv1 dot_S32000x64_S64x64_S32000x64_1_0_0_1_n_n 64 rfl rfl).symm]
  refine Finset.sum_congr rfl fun k _ => ?_
  have hk := contrEquiv1_symm_val dot_S32000x64_S64x64_S32000x64_1_0_0_1_n_n 64 rfl rfl k
  have el : dot_S32000x64_S64x64_S32000x64_1_0_0_1_n_n.lhsIdx (ix2 q o) ((contrEquiv1 dot_S32000x64_S64x64_S32000x64_1_0_0_1_n_n 64 rfl rfl).symm k) = ix2 q k := funext fun b => Fin.ext (by
    match b with
    | ⟨0, _⟩ => exact nbrDot_lhs0 _ _
    | ⟨1, _⟩ => exact (nbrDot_lhs1 _ _).trans hk)
  have er : dot_S32000x64_S64x64_S32000x64_1_0_0_1_n_n.rhsIdx (ix2 q o) ((contrEquiv1 dot_S32000x64_S64x64_S32000x64_1_0_0_1_n_n 64 rfl rfl).symm k) = ix2 k o := funext fun b => Fin.ext (by
    match b with
    | ⟨0, _⟩ => exact (nbrDot_rhs0 _ _).trans hk
    | ⟨1, _⟩ => exact nbrDot_rhs1 _ _)
  rw [el, er]

theorem ctrDot_lhs0 (j : S1000x64.Idx) (q : dot_S1000x64_S64x64_S1000x64_1_0_0_1_n_n.contr.Idx) :
    (dot_S1000x64_S64x64_S1000x64_1_0_0_1_n_n.lhsIdx j q 0).val = (j 0).val := by
  unfold DotDims.lhsIdx
  rw [dif_neg (show ¬(0 : Fin S1000x64.rank) ∈ dot_S1000x64_S64x64_S1000x64_1_0_0_1_n_n.lhsBatch by decide),
    dif_pos (show (0 : Fin S1000x64.rank) ∈ dot_S1000x64_S64x64_S1000x64_1_0_0_1_n_n.lhsNonContracting by decide)]
  rfl
theorem ctrDot_lhs1 (j : S1000x64.Idx) (q : dot_S1000x64_S64x64_S1000x64_1_0_0_1_n_n.contr.Idx) :
    (dot_S1000x64_S64x64_S1000x64_1_0_0_1_n_n.lhsIdx j q 1).val = (q ⟨0, by decide⟩).val :=
  dot_S1000x64_S64x64_S1000x64_1_0_0_1_n_n.lhsIdx_val_of_single rfl j q
theorem ctrDot_rhs0 (j : S1000x64.Idx) (q : dot_S1000x64_S64x64_S1000x64_1_0_0_1_n_n.contr.Idx) :
    (dot_S1000x64_S64x64_S1000x64_1_0_0_1_n_n.rhsIdx j q 0).val = (q ⟨0, by decide⟩).val :=
  dot_S1000x64_S64x64_S1000x64_1_0_0_1_n_n.rhsIdx_val_of_single rfl j q
theorem ctrDot_rhs1 (j : S1000x64.Idx) (q : dot_S1000x64_S64x64_S1000x64_1_0_0_1_n_n.contr.Idx) :
    (dot_S1000x64_S64x64_S1000x64_1_0_0_1_n_n.rhsIdx j q 1).val = (j 1).val := by
  unfold DotDims.rhsIdx
  rw [dif_neg (show ¬(1 : Fin S64x64.rank) ∈ dot_S1000x64_S64x64_S1000x64_1_0_0_1_n_n.rhsBatch by decide),
    dif_pos (show (1 : Fin S64x64.rank) ∈ dot_S1000x64_S64x64_S1000x64_1_0_0_1_n_n.rhsNonContracting by decide)]
  rfl

/-- The centres' product: row `r`, column `o` of the 1000 × 64 by 64 × 64 product into zero likewise. -/
theorem ctrDot_apply (a : FVec Ideal S1000x64 .f32) (w : FVec Ideal S64x64 .f32) (r : Fin 1000) (o : Fin 64) :
    matmul dot_S1000x64_S64x64_S1000x64_1_0_0_1_n_n none a w (constant S1000x64 .f32 0x00000000#32) (ix2 r o)
      = ∑ c : Fin 64, a (ix2 r c) * w (ix2 c o) := by
  simp only [matmul]
  refine (Ideal.matmul_constant_zero_apply dot_S1000x64_S64x64_S1000x64_1_0_0_1_n_n none a w (ix2 r o)).trans ?_
  rw [← Equiv.sum_comp (contrEquiv1 dot_S1000x64_S64x64_S1000x64_1_0_0_1_n_n 64 rfl rfl).symm]
  refine Finset.sum_congr rfl fun k _ => ?_
  have hk := contrEquiv1_symm_val dot_S1000x64_S64x64_S1000x64_1_0_0_1_n_n 64 rfl rfl k
  have el : dot_S1000x64_S64x64_S1000x64_1_0_0_1_n_n.lhsIdx (ix2 r o) ((contrEquiv1 dot_S1000x64_S64x64_S1000x64_1_0_0_1_n_n 64 rfl rfl).symm k) = ix2 r k := funext fun b => Fin.ext (by
    match b with
    | ⟨0, _⟩ => exact ctrDot_lhs0 _ _
    | ⟨1, _⟩ => exact (ctrDot_lhs1 _ _).trans hk)
  have er : dot_S1000x64_S64x64_S1000x64_1_0_0_1_n_n.rhsIdx (ix2 r o) ((contrEquiv1 dot_S1000x64_S64x64_S1000x64_1_0_0_1_n_n 64 rfl rfl).symm k) = ix2 k o := funext fun b => Fin.ext (by
    match b with
    | ⟨0, _⟩ => exact (ctrDot_rhs0 _ _).trans hk
    | ⟨1, _⟩ => exact ctrDot_rhs1 _ _)
  rw [el, er]

/-! ## The pre-activation and the stored block at an entry -/

/-- Entry (r, h, o) of the pre-activations: neighbour `h`'s row times the first weight block, minus the centre row times
    the second, plus the bias. -/
theorem preVec_apply (r : Fin 1000) (h : Fin 32) (o : Fin 64) :
    preVec x0 x1 x2 x3 (ix3 r h o)
      = ((∑ c : Fin 64, x0 (ix4 (0 : Fin 1) r h c) * x1 (ix2 c o))
          - ∑ c : Fin 64, x0 (ix4 (0 : Fin 1) r (0 : Fin 32) c) * x2 (ix2 c o))
        + x3 (ix1 o) := by
  have hq : r.val * 32 + h.val < 32000 := by have := r.isLt; have := h.isLt; omega
  unfold preVec
  rw [addf_apply, subf_apply]
  refine congrArg₂ (· + ·) (congrArg₂ (· - ·) ?_ ?_) ?_
  · -- the neighbours' product, row 32 r + h of the flattened block
    refine (shapeCast_apply _ _ _ (ix2 (⟨r.val * 32 + h.val, hq⟩ : Fin 32000) o) ?_).trans ?_
    · rw [Shape.rowMajor_val_two, Shape.rowMajor_val_three]; rfl
    refine (nbrDot_apply _ _ _ o).trans (Finset.sum_congr rfl fun c _ => ?_)
    refine congrArg₂ (· * ·) ?_ ?_
    · refine (shapeCast_apply _ _ _ (ix3 r h c) ?_).trans ?_
      · rw [Shape.rowMajor_val_two, Shape.rowMajor_val_three]; rfl
      refine shapeCast_apply _ _ _ (ix4 (0 : Fin 1) r h c) ?_
      rw [Shape.rowMajor_val_three, Shape.rowMajor_val_four]
      show ((0 * 1000 + r.val) * 32 + h.val) * 64 + c.val = (r.val * 32 + h.val) * 64 + c.val
      omega
    · rw [shapeCast_self]
  · -- the centre's product, broadcast over the neighbours
    refine (broadcastTo_apply _ _ _ (ix3 r (0 : Fin 1) o) (fun a => ?_)).trans ?_
    · match a with
      | ⟨0, _⟩ => show r.val = if (1000 : Nat) = 1 then 0 else r.val; rw [if_neg (by decide)]
      | ⟨1, _⟩ => show 0 = if (1 : Nat) = 1 then 0 else h.val; rw [if_pos rfl]
      | ⟨2, _⟩ => show o.val = if (64 : Nat) = 1 then 0 else o.val; rw [if_neg (by decide)]
    refine (shapeCast_apply _ _ _ (ix2 r o) ?_).trans ?_
    · rw [Shape.rowMajor_val_two, Shape.rowMajor_val_three]
      show r.val * 64 + o.val = (r.val * 1 + 0) * 64 + o.val
      omega
    refine (ctrDot_apply _ _ r o).trans (Finset.sum_congr rfl fun c _ => ?_)
    refine congrArg₂ (· * ·) ?_ ?_
    · refine (shapeCast_apply _ _ _ (ix3 r (0 : Fin 1) c) ?_).trans ?_
      · rw [Shape.rowMajor_val_two, Shape.rowMajor_val_three]
        show (r.val * 1 + 0) * 64 + c.val = r.val * 64 + c.val
        omega
      refine (extractStridedSlice_apply _ _ _ _ (ix3 r (0 : Fin 32) c) (fun a => ?_)).trans ?_
      · match a with
        | ⟨0, _⟩ => show r.val = 0 + r.val; omega
        | ⟨1, _⟩ => show 0 = 0 + 0; rfl
        | ⟨2, _⟩ => show c.val = 0 + c.val; omega
      refine shapeCast_apply _ _ _ (ix4 (0 : Fin 1) r (0 : Fin 32) c) ?_
      rw [Shape.rowMajor_val_three, Shape.rowMajor_val_four]
      show ((0 * 1000 + r.val) * 32 + 0) * 64 + c.val = (r.val * 32 + 0) * 64 + c.val
      omega
    · rw [shapeCast_self]
  · -- the bias, broadcast over points and neighbours
    refine (broadcastTo_apply _ _ _ (ix3 (0 : Fin 1) (0 : Fin 1) o) (fun a => ?_)).trans ?_
    · match a with
      | ⟨0, _⟩ => show 0 = if (1 : Nat) = 1 then 0 else r.val; rw [if_pos rfl]
      | ⟨1, _⟩ => show 0 = if (1 : Nat) = 1 then 0 else h.val; rw [if_pos rfl]
      | ⟨2, _⟩ => show o.val = if (64 : Nat) = 1 then 0 else o.val; rw [if_neg (by decide)]
    refine shapeCast_apply _ _ _ (ix1 o) ?_
    rw [Shape.rowMajor_val_one, Shape.rowMajor_val_three]
    show o.val = (0 * 1 + 0) * 64 + o.val
    omega

/-- Entry (0, 0, r, o) of what the body stores: the maximum over the neighbours of the rectified pre-activation. -/
theorem pay_apply (r : Fin 1000) (o : Fin 64) :
    k0_pay1 (F := Ideal) x0 x1 x2 x3 (ix4 (0 : Fin 1) (0 : Fin 1) r o)
      = nbrMax fun h => leaky
          (((∑ c : Fin 64, x0 (ix4 (0 : Fin 1) r h c) * x1 (ix2 c o))
              - ∑ c : Fin 64, x0 (ix4 (0 : Fin 1) r (0 : Fin 32) c) * x2 (ix2 c o))
            + x3 (ix1 o)) := by
  rw [pay_eq]
  refine (shapeCast_apply _ _ _ (ix2 r o) ?_).trans ?_
  · rw [Shape.rowMajor_val_two, Shape.rowMajor_val_four]
    show r.val * 64 + o.val = ((0 * 1 + 0) * 1000 + r.val) * 64 + o.val
    omega
  refine (Ideal.multiReduction_maximumf_single _ _ reduces_S1000x32x64_S1000x64 _ _ (ix2 r o)).trans ?_
  unfold nbrMax
  refine congrArg (fun f : Fin 32 → EReal => Finset.fold max (Ideal.ofBits .f32 0xFF800000#32) f (Finset.univ : Finset (Fin 32)))
    (funext fun (h : Fin 32) => ?_)
  have hl : reduces_S1000x32x64_S1000x64.lift (ix2 r o) h = ix3 r h o := funext fun a => Fin.ext (by
    match a with
    | ⟨0, _⟩ => rfl
    | ⟨1, _⟩ => rfl
    | ⟨2, _⟩ => rfl)
  show select _ _ _ (reduces_S1000x32x64_S1000x64.lift (ix2 r o) h) = _
  rw [hl, select_apply, mulf_apply, cmpf_apply, broadcast_apply, broadcast_apply, preVec_apply]
  rfl

end Cert.KernelIdeal.Body

end
-- ==== Proof.KernelArrays.lean ====
/-
  The arrays the kernel's windows read, and each window's block at a grid point, entry by entry.

  Before the kernel is launched the host forms the two weight blocks from W = [W₁ | W₂]: the fused block, whose entry
  (c, o) is W₁[o, c] + W₂[o, c], and the transposed left half, whose entry (c, o) is W₁[o, c]. The grid has 4 × 10
  points (b, k); at a point the kernel sees points 1000 k … 1000 k + 999 of batch b, both weight blocks whole and the
  bias whole, and writes rows 1000 k … 1000 k + 999 of batch b of the result.
-/
import proofs.«118309_j57002805952868_2_alg».proof.Proof.Gen.KernelIdeal.Frame
import proofs.«118309_j57002805952868_2_alg».proof.Proof.Spec
import Idealize.ShloMosaic.Lib.Pipeline.Value
import Idealize.ShloMosaic.Lib.ValueIdx
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx Cert.EdgeMax Idealize.ShloMosaic.StableHlo

variable (m : (ℓ : Loc nD τ sig) → Buf (Elt Ideal) ℓ)

/-- The three argument arrays on core `c`, as functions of their indices. -/
abbrev Xm (c : Dev nD) : S4x10000x32x64.Idx → EReal := m ((c : Thread nD τ).loc main_arg0)
abbrev Wm (c : Dev nD) : S64x128.Idx → EReal := m ((c : Thread nD τ).loc main_arg1)
abbrev Bm (c : Dev nD) : S64.Idx → EReal := m ((c : Thread nD τ).loc main_arg2)

/-- The fused weight block as the kernel finds it: the transpose of the sum of the two halves of `W`. -/
theorem fused_eq (c : Dev nD) :
    @Eq (S64x64.Idx → EReal) (V m c main_v3)
      (transpose S64x64 [1, 0]
          (addf (F := Ideal) (φ := .f32) (extractStridedSlice S64x64 ![0, 0] (Wm m c) slices_S64x128_S64x64_0_0)
            (extractStridedSlice S64x64 ![0, 64] (Wm m c) slices_S64x128_S64x64_0_64))
          transposes_S64x64_S64x64_1_0) := by
  dsimp only [V, hostOps0]; after_results <;> rfl

/-- The left weight block as the kernel finds it: the transpose of the left half of `W`. -/
theorem left_eq (c : Dev nD) :
    @Eq (S64x64.Idx → EReal) (V m c main_v4)
      (transpose S64x64 [1, 0] (extractStridedSlice S64x64 ![0, 0] (Wm m c) slices_S64x128_S64x64_0_0)
          transposes_S64x64_S64x64_1_0) := by
  dsimp only [V, hostOps0]; after_results <;> rfl

/-- Entry (c, o) of the fused block is `W₁[o, c] + W₂[o, c]`. -/
theorem fused_apply (c : Dev nD) (ci o : Fin 64) :
    @Eq EReal (V m c main_v3 (ix2 ci o)) (Wm m c (ix2 o (lo ci)) + Wm m c (ix2 o (hi ci))) := by
  refine (congrFun (fused_eq m c) (ix2 ci o)).trans ?_
  refine (transpose_apply _ _ _ _ (ix2 o ci) (fun b => ?_)).trans ?_
  · match b with
    | ⟨0, _⟩ => rfl
    | ⟨1, _⟩ => rfl
  rw [addf_apply]
  refine congrArg₂ (· + ·) ?_ ?_
  · refine extractStridedSlice_apply _ _ _ _ (ix2 o (lo ci)) (fun a => ?_)
    match a with
    | ⟨0, _⟩ => show o.val = 0 + o.val; omega
    | ⟨1, _⟩ => show ci.val = 0 + ci.val; omega
  · refine extractStridedSlice_apply _ _ _ _ (ix2 o (hi ci)) (fun a => ?_)
    match a with
    | ⟨0, _⟩ => show o.val = 0 + o.val; omega
    | ⟨1, _⟩ => show 64 + ci.val = 64 + ci.val; rfl

/-- Entry (c, o) of the left block is `W₁[o, c]`. -/
theorem left_apply (c : Dev nD) (ci o : Fin 64) :
    @Eq EReal (V m c main_v4 (ix2 ci o)) (Wm m c (ix2 o (lo ci))) := by
  refine (congrFun (left_eq m c) (ix2 ci o)).trans ?_
  refine (transpose_apply _ _ _ _ (ix2 o ci) (fun b => ?_)).trans ?_
  · match b with
    | ⟨0, _⟩ => rfl
    | ⟨1, _⟩ => rfl
  refine extractStridedSlice_apply _ _ _ _ (ix2 o (lo ci)) (fun a => ?_)
  match a with
  | ⟨0, _⟩ => show o.val = 0 + o.val; omega
  | ⟨1, _⟩ => show ci.val = 0 + ci.val; omega

/-! ## Each window's block at a grid point -/

/-- The printed index maps over the 40 grid points: the input block of `x` moves with the output block (batch with
    batch, point tile with point tile), and the weights and the bias are whole at every point. -/
theorem idx_facts : ∀ t : Fin cfg0.N,
    win0_0.index t (0 : Fin 4) = win0_4.index t (0 : Fin 4) ∧ win0_0.index t (1 : Fin 4) = win0_4.index t (2 : Fin 4)
    ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (1 : Fin 4) = 0 ∧ win0_4.index t (3 : Fin 4) = 0
    ∧ win0_4.index t (0 : Fin 4) ≤ 3 ∧ win0_4.index t (2 : Fin 4) ≤ 9 :=
  (by decide +kernel : ∀ t : Fin grid0.N, _)

/-- Every (batch, point tile) pair is some grid point's output block. -/
theorem idx_onto : ∀ (q0 : Fin 4) (q2 : Fin 10), ∃ t : Fin cfg0.N,
    win0_4.index t (0 : Fin 4) = q0.val ∧ win0_4.index t (2 : Fin 4) = q2.val :=
  (by decide +kernel : ∀ (q0 : Fin 4) (q2 : Fin 10), ∃ t : Fin grid0.N,
    win0_4.index t (0 : Fin 4) = q0.val ∧ win0_4.index t (2 : Fin 4) = q2.val)

/-- The block of `x` at point `t`, entry `y`, is `x` at the index whose coordinates are block index × block extent plus
    `y`'s. -/
theorem xblk_apply (c : Dev nD) (t : Fin cfg0.N) (y : S1x1000x32x64.Idx) (k : S4x10000x32x64.Idx)
    (h0 : win0_0.index t (0 : Fin 4) * 1 + 1 * (y 0).val = (k 0).val)
    (h1 : win0_0.index t (1 : Fin 4) * 1000 + 1 * (y 1).val = (k 1).val)
    (h2 : win0_0.index t (2 : Fin 4) * 32 + 1 * (y 2).val = (k 2).val)
    (h3 : win0_0.index t (3 : Fin 4) * 64 + 1 * (y 3).val = (k 3).val) :
    @Eq EReal (iblk m c 0 t y) (Xm m c k) := by
  unfold iblk
  rw [View.read_apply]
  show V m c main_arg0 _ = _
  rw [V_main_arg0]
  refine congrArg (Xm m c) (funext fun a => Fin.ext ?_)
  match a with
  | ⟨0, _⟩ => exact h0
  | ⟨1, _⟩ => exact h1
  | ⟨2, _⟩ => exact h2
  | ⟨3, _⟩ => exact h3

/-- The fused weight block at any point is the whole array. -/
theorem fusedblk_apply (c : Dev nD) (t : Fin cfg0.N) (y : S64x64.Idx) :
    @Eq EReal (iblk m c 1 t y) (V m c main_v3 y) := by
  obtain ⟨_, _, _, _, e0, e1, _⟩ := idx_facts t
  unfold iblk
  rw [View.read_apply]
  show V m c main_v3 _ = _
  refine congrArg (V m c main_v3) (funext fun a => Fin.ext ?_)
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- The left weight block at any point is the whole array. -/
theorem leftblk_apply (c : Dev nD) (t : Fin cfg0.N) (y : S64x64.Idx) :
    @Eq EReal (iblk m c 2 t y) (V m c main_v4 y) := by
  obtain ⟨_, _, _, _, _, _, e0, e1, _⟩ := idx_facts t
  unfold iblk
  rw [View.read_apply]
  show V m c main_v4 _ = _
  refine congrArg (V m c main_v4) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The bias block at any point is the whole bias. -/
theorem biasblk_apply (c : Dev nD) (t : Fin cfg0.N) (y : S64.Idx) :
    @Eq EReal (iblk m c 3 t y) (Bm m c y) := by
  obtain ⟨_, _, _, _, _, _, _, _, e0, _⟩ := idx_facts t
  unfold iblk
  rw [View.read_apply]
  show V m c main_arg2 _ = _
  rw [V_main_arg2]
  refine congrArg (Bm m c) (funext fun a => Fin.ext ?_)
  match a with
  | ⟨0, _⟩ => show win0_3.index t (0 : Fin 1) * 64 + 1 * (y 0).val = (y 0).val; omega

end Cert.KernelIdeal.Arrays

end
-- ==== Proof.KernelValue.lean ====
/-
  The kernel's result array after the run is `Cert.EdgeMax.result` of the three argument arrays.

  At grid point (b, k) the body stores, at entry (0, 0, r, o) of its block, the neighbour maximum of the rectified
  fused pre-activation of point 1000 k + r of batch b (the body's entry, read over the blocks the point sees); that block
  is rows 1000 k … 1000 k + 999 of batch b of the result, and the 40 blocks tile the array.
-/
import proofs.«118309_j57002805952868_2_alg».proof.Proof.Gen.KernelIdeal.Value
import proofs.«118309_j57002805952868_2_alg».proof.Proof.KernelBody
import proofs.«118309_j57002805952868_2_alg».proof.Proof.KernelArrays

noncomputable section

namespace Cert.KernelIdeal.Whole

open Cert.KernelIdeal Cert.KernelIdeal.Gen Idealize.ShloMosaic Idealize.ShloMosaic.TcCoe Idealize.SL.Sem
open Idealize.ShloMosaic.ValueIdx Cert.EdgeMax Cert.KernelIdeal.Arrays Cert.KernelIdeal.Body
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- At point `t`, entry (·, ·, r, o) of what the body stores is the result at the array index (b, ·, n, o) whose batch
    and point are the block's index times the block's extent plus the entry's. -/
theorem block_entry (c : Dev nD) (t : Fin cfg0.N) (jb jz : Fin 1) (r : Fin 1000) (o : Fin 64)
    (b : Fin 4) (z : Fin 1) (n : Fin 10000) (o' : Fin 64)
    (hb : b.val = win0_4.index t (0 : Fin 4) * 1 + 1 * jb.val)
    (hn : n.val = win0_4.index t (2 : Fin 4) * 1000 + 1 * r.val)
    (ho : o'.val = win0_4.index t (3 : Fin 4) * 64 + 1 * o.val) :
    k0_pay1 (F := Ideal) (iblk m c 0 t) (iblk m c 1 t) (iblk m c 2 t) (iblk m c 3 t) (ix4 jb jz r o)
      = result (Xm m c) (Wm m c) (Bm m c) (ix4 b z n o') := by
  obtain ⟨e00, e01, e02, e03, -, -, -, -, -, e41, e43, -, -⟩ := idx_facts t
  obtain rfl : jb = 0 := Subsingleton.elim _ _
  obtain rfl : jz = 0 := Subsingleton.elim _ _
  obtain rfl : o = o' := Fin.ext (by omega)
  refine (pay_apply _ _ _ _ r o).trans ?_
  show _ = nbrMax fun h => leaky (fusedPre (Xm m c) (Wm m c) (Bm m c) b n o h)
  refine congrArg nbrMax (funext fun h => congrArg leaky ?_)
  unfold fusedPre
  refine congrArg₂ (· + ·) (congrArg₂ (· - ·) (Finset.sum_congr rfl fun ci _ => congrArg₂ (· * ·) ?_ ?_)
    (Finset.sum_congr rfl fun ci _ => congrArg₂ (· * ·) ?_ ?_)) ?_
  · refine xblk_apply m c t _ _ ?_ ?_ ?_ ?_
    · show win0_0.index t (0 : Fin 4) * 1 + 1 * 0 = b.val; omega
    · show win0_0.index t (1 : Fin 4) * 1000 + 1 * r.val = n.val; omega
    · show win0_0.index t (2 : Fin 4) * 32 + 1 * h.val = h.val; omega
    · show win0_0.index t (3 : Fin 4) * 64 + 1 * ci.val = ci.val; omega
  · exact (fusedblk_apply m c t _).trans (fused_apply m c ci o)
  · refine xblk_apply m c t _ _ ?_ ?_ ?_ ?_
    · show win0_0.index t (0 : Fin 4) * 1 + 1 * 0 = b.val; omega
    · show win0_0.index t (1 : Fin 4) * 1000 + 1 * r.val = n.val; omega
    · show win0_0.index t (2 : Fin 4) * 32 + 1 * 0 = 0; omega
    · show win0_0.index t (3 : Fin 4) * 64 + 1 * ci.val = ci.val; omega
  · exact (leftblk_apply m c t _).trans (left_apply m c ci o)
  · exact biasblk_apply m c t _

/-- What point `t` writes back is block `t` of the result. -/
theorem flushed_eq (c : Dev nD) (t : Fin cfg0.N) :
    (dats m 0 c).flushed 4 t
      = ((cfg0.win 4).blk t).view.read (Elt Ideal) (result (Xm m c) (Wm m c) (Bm m c)) := by
  rw [Value.flushed4]
  unfold out0_4
  rw [View.canon_unit_zero hz4]
  simp only [View.ld_unit_zero (S := S1x1000x32x64) hz4, View.ld_unit_zero (S := S64x64) hz2,
    View.ld_unit_zero (S := S64) hz1]
  obtain ⟨-, -, -, -, -, -, -, -, -, e41, e43, b0, b2⟩ := idx_facts t
  funext j
  have h0 : (j 0).val < 1 := (j 0).isLt
  have h1 : (j 1).val < 1 := (j 1).isLt
  have h2 : (j 2).val < 1000 := (j 2).isLt
  have h3 : (j 3).val < 64 := (j 3).isLt
  have ej : (j : S1x1x1000x64.Idx) = ix4 (⟨(j 0).val, h0⟩ : Fin 1) (⟨(j 1).val, h1⟩ : Fin 1) (⟨(j 2).val, h2⟩ : Fin 1000)
      (⟨(j 3).val, h3⟩ : Fin 64) := funext fun a => Fin.ext (by
    match a with
    | ⟨0, _⟩ => rfl
    | ⟨1, _⟩ => rfl
    | ⟨2, _⟩ => rfl
    | ⟨3, _⟩ => rfl)
  have ei : (((cfg0.win 4).blk t).view.emb j : S4x1x10000x64.Idx)
      = ix4 (⟨win0_4.index t (0 : Fin 4) * 1 + 1 * (j 0).val, by omega⟩ : Fin 4)
          (⟨win0_4.index t (1 : Fin 4) * 1 + 1 * (j 1).val, by omega⟩ : Fin 1)
          (⟨win0_4.index t (2 : Fin 4) * 1000 + 1 * (j 2).val, by omega⟩ : Fin 10000)
          (⟨win0_4.index t (3 : Fin 4) * 64 + 1 * (j 3).val, by omega⟩ : Fin 64) := funext fun a => Fin.ext (by
    match a with
    | ⟨0, _⟩ => rfl
    | ⟨1, _⟩ => rfl
    | ⟨2, _⟩ => rfl
    | ⟨3, _⟩ => rfl)
  show k0_pay1 (F := Ideal) (iblk m c 0 t) (iblk m c 1 t) (iblk m c 2 t) (iblk m c 3 t) j
    = result (Xm m c) (Wm m c) (Bm m c) (((cfg0.win 4).blk t).view.emb j)
  rw [ei]
  refine (congrArg (k0_pay1 (F := Ideal) (iblk m c 0 t) (iblk m c 1 t) (iblk m c 2 t) (iblk m c 3 t)) ej).trans ?_
  exact block_entry m c t _ _ _ _ _ _ _ _ rfl rfl rfl

/-- An index of the result array is in point `t`'s block iff each coordinate is in the block's range on its axis. -/
theorem mem_blk (t : Fin cfg0.N) (i : S4x1x10000x64.Idx) :
    i ∈ ((cfg0.win 4).blk t).view.set ↔ ∀ a : Fin 4, win0_4.index t a * S1x1x1000x64.size a ≤ (i a).val
      ∧ (i a).val < win0_4.index t a * S1x1x1000x64.size a + S1x1x1000x64.size a := by
  show i ∈ ((View.whole main_v5).slice (win0_4.rect t)).set ↔ _
  rw [View.set_slice_whole, Rect.mem_set_unit]
  exact Iff.rfl

/-- Every index of the result array lies in some grid point's block: batch `b`, point `n` in the block of (b, n / 1000). -/
theorem cover (i : S4x1x10000x64.Idx) :
    ∃ t : Fin cfg0.N, (cfg0.win 4).flush t = true ∧ i ∈ ((cfg0.win 4).blk t).view.set := by
  have hi0 : (i 0).val < 4 := (i 0).isLt
  have hi1 : (i 1).val < 1 := (i 1).isLt
  have hi2 : (i 2).val < 10000 := (i 2).isLt
  have hi3 : (i 3).val < 64 := (i 3).isLt
  obtain ⟨t, q0, q2⟩ := idx_onto ⟨(i 0).val, hi0⟩ ⟨(i 2).val / 1000, by omega⟩
  have q0' : win0_4.index t (0 : Fin 4) = (i 0).val := q0
  have q2' : win0_4.index t (2 : Fin 4) = (i 2).val / 1000 := q2
  obtain ⟨-, -, -, -, -, -, -, -, -, e41, e43, -, -⟩ := idx_facts t
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1000 ≤ (i 2).val ∧ (i 2).val < win0_4.index t (2 : Fin 4) * 1000 + 1000; omega
  | ⟨3, _⟩ => show win0_4.index t (3 : Fin 4) * 64 ≤ (i 3).val ∧ (i 3).val < win0_4.index t (3 : Fin 4) * 64 + 64; omega

/-- The result array after the run. -/
theorem final (c : Dev nD) : (dats m 0 c).arrAt 4 cfg0.N = result (Xm m c) (Wm m c) (Bm m c) :=
  (dats m 0 c).arrAt_eq_of_cover 4 (result (Xm m c) (Wm m c) (Bm m c)) (fun t _ => flushed_eq m c t) cover

/-- The kernel's run, read: the result array at `result` of the arguments, the arguments unchanged. -/
theorem run : θ_run defs (onTc (τ := τ) (main (F := Ideal))) ⟨m, fun _ => 0, ρ⟩ fun r => ∀ c : Dev nD,
      r.2.mem ((c : Thread nD τ).loc main_v5) = result (Xm m c) (Wm m c) (Bm m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  The reference, read entry by entry, is `Cert.EdgeMax.result` of its three arguments.

  The reference forms the edge feature [x_h − x_0, x_h] (128 entries), contracts it with row o of W, adds the bias,
  rectifies and takes the maximum over the 32 neighbours. The contraction over 128 splits into the two halves of W,
  which is `splitPre`; for real entries that is `fusedPre`.
-/
import proofs.«118309_j57002805952868_2_alg».proof.Proof.Gen.ReferenceIdeal.Read
import proofs.«118309_j57002805952868_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.EdgeMax

variable (x0 : S4x10000x32x64.Idx → EReal) (x1 : S64x128.Idx → EReal) (x2 : S64.Idx → EReal)

/-- The left half of the edge feature is the neighbour's row minus the centre's. -/
theorem edge_left (b : Fin 4) (n : Fin 10000) (h : Fin 32) (c : Fin 64) :
    val_main_v3 (F := Ideal) x0 (ix4 b n h (lo c)) = x0 (ix4 b n h c) - x0 (ix4 b n (0 : Fin 32) c) := by
  unfold val_main_v3
  refine (concatenate_pair_apply_left (s₁ := S4x10000x32x64) (s₂ := S4x10000x32x64) _ _ _ _ (ix4 b n h (lo c)) rfl (ix4 b n h c : S4x10000x32x64.Idx) (fun a => ?_)).trans ?_
  · match a with
    | ⟨0, _⟩ => rfl
    | ⟨1, _⟩ => rfl
    | ⟨2, _⟩ => rfl
    | ⟨3, _⟩ => rfl
  rw [val_main_v2_apply, val_main_v1_apply, val_main_v0_apply]
  have e : idx_main_v0 (idx_main_v1 (ix4 b n h c)) = ix4 b n (0 : Fin 32) c := funext fun a => Fin.ext (by
    match a with
    | ⟨0, _⟩ => rfl
    | ⟨1, _⟩ => rfl
    | ⟨2, _⟩ => rfl
    | ⟨3, _⟩ => rfl)
  rw [e]
  rfl

/-- The right half of the edge feature is the neighbour's row. -/
theorem edge_right (b : Fin 4) (n : Fin 10000) (h : Fin 32) (c : Fin 64) :
    val_main_v3 (F := Ideal) x0 (ix4 b n h (hi c)) = x0 (ix4 b n h c) := by
  unfold val_main_v3
  refine concatenate_pair_apply_right (s₁ := S4x10000x32x64) (s₂ := S4x10000x32x64) _ _ _ _ (ix4 b n h (hi c)) rfl rfl (ix4 b n h c : S4x10000x32x64.Idx) (fun a ha => ?_) ?_
  · match a with
    | ⟨0, _⟩ => rfl
    | ⟨1, _⟩ => rfl
    | ⟨2, _⟩ => rfl
    | ⟨3, _⟩ => exact absurd rfl ha
  · show c.val + 64 = 64 + c.val
    omega

/-- The reference's pre-activation at (b, n, h, o) is the split form. -/
theorem pre_apply (b : Fin 4) (n : Fin 10000) (h : Fin 32) (o : Fin 64) :
    val_main_v7 (F := Ideal) x0 x1 x2 (ix4 b n h o) = splitPre x0 x1 x2 b n o h := by
  rw [val_main_v7_apply, val_main_v4_apply, val_main_v6_apply, val_main_v5_apply, sum_halves]
  unfold splitPre
  have el : ∀ k : Fin 128, lidx_main_v4 (ix4 b n h o) k = ix4 b n h k := fun k => funext fun a => Fin.ext (by
    match a with
    | ⟨0, _⟩ => rfl
    | ⟨1, _⟩ => rfl
    | ⟨2, _⟩ => rfl
    | ⟨3, _⟩ => rfl)
  have er : ∀ k : Fin 128, ridx_main_v4 (ix4 b n h o) k = ix2 o k := fun k => funext fun a => Fin.ext (by
    match a with
    | ⟨0, _⟩ => rfl
    | ⟨1, _⟩ => rfl)
  have eb : idx_main_v5 (idx_main_v6 (ix4 b n h o)) = ix1 o := funext fun a => Fin.ext (by
    match a with
    | ⟨0, _⟩ => rfl)
  simp only [el, er, eb, edge_left, edge_right]
  rfl

/-- The reference's result array is `result` of its arguments, when `x` and `W` hold real numbers: the host's
    maximum over the neighbour axis is the fold over the 32 neighbours, each entry the rectified pre-activation. -/
theorem ref_eq (hX : ∀ i, ∃ r : ℝ, x0 i = r) (hW : ∀ i, ∃ r : ℝ, x1 i = r) :
    val_main_v14 (F := Ideal) x0 x1 x2 = result x0 x1 x2 := by
  funext i
  obtain ⟨b, z, n, o, rfl⟩ : ∃ (b : Fin 4) (z : Fin 1) (n : Fin 10000) (o : Fin 64), i = ix4 b z n o :=
    ⟨i 0, i 1, i 2, i 3, eq_ix4 i⟩
  rw [val_main_v14_apply]
  have hj : idx_main_v14 (ix4 b z n o) = ix3 b n o := funext fun a => Fin.ext (by
    match a with
    | ⟨0, _⟩ => rfl
    | ⟨1, _⟩ => rfl
    | ⟨2, _⟩ => rfl)
  rw [hj]
  unfold val_main_v13
  have hred : S4x10000x32x64.Reduces [2] S4x10000x64 := by decide
  refine (Host.reduce_eq_fold_single FloatOps.maximumf _ _ reducesTo_S4x10000x32x64_S4x10000x64_d2 hred h_S_ (ix3 b n o)).trans ?_
  show _ = nbrMax fun h => leaky (fusedPre x0 x1 x2 b n o h)
  unfold nbrMax
  refine congrArg (fun f : Fin 32 → EReal => Finset.fold max (Ideal.ofBits .f32 0xFF800000#32) f (Finset.univ : Finset (Fin 32)))
    (funext fun (h : Fin 32) => ?_)
  have hl : hred.lift (ix3 b n o) h = ix4 b n h o := funext fun a => Fin.ext (by
    match a with
    | ⟨0, _⟩ => rfl
    | ⟨1, _⟩ => rfl
    | ⟨2, _⟩ => rfl
    | ⟨3, _⟩ => rfl)
  show val_main_v12 (F := Ideal) x0 x1 x2 (hred.lift (ix3 b n o) h) = _
  rw [hl, val_main_v12_apply, val_main_v9_apply, val_main_v11_apply, val_main_v8_apply, val_main_v10_apply,
    val_main_cst_apply, val_main_cst_0_apply, pre_apply, splitPre_eq_fusedPre x0 x1 x2 hX hW]
  rfl

end Cert.ReferenceIdeal.RefValue

end
-- ==== Proof.Finite.lean ====
/-
  From the precondition to real entries.

  The precondition says of each of the three arrays that every entry's absolute value is below the pattern of +∞.
  On the extended reals that excludes exactly −∞ and +∞: every entry is a real number.
-/
import proofs.«118309_j57002805952868_2_alg».proof.Pre_finite_inputs
import proofs.«118309_j57002805952868_2_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Decode

open Cert.Pre_finite_inputs Idealize.ShloMosaic

instance : Subsingleton S_.Idx := ⟨fun a b => funext fun d => d.elim0⟩

/-- The f32 pattern `0x7F800000` denotes +∞. -/
theorem inf_pat : Ideal.ofBits .f32 0x7F800000#32 = ⊤ := by simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = r := by
  rw [inf_pat] at h
  induction x using EReal.rec with
  | bot => exact absurd h (by simp [Ideal.cmp])
  | top => exact absurd h (by simp [Ideal.cmp])
  | coe r => exact ⟨r, rfl⟩

/-- The precondition of three arrays says each holds real numbers only. -/
theorem real_of_pre (x0 : FVec Ideal S4x10000x32x64 .f32) (x1 : FVec Ideal S64x128 .f32) (x2 : FVec Ideal S64 .f32)
    (h : fn (F := Ideal) x0 x1 x2 = fun _ => 1#1) :
    (∀ i, ∃ r : ℝ, x0 i = r) ∧ (∀ i, ∃ r : ℝ, x1 i = r) ∧ (∀ i, ∃ r : ℝ, x2 i = r) := by
  have h0 := congrFun h ValueIdx.ix0
  dsimp only [fn, Idealize.ShloMosaic.andi] at h0
  obtain ⟨h01, h2⟩ := IntOp.andi_eq_one.mp h0
  obtain ⟨hx, hw⟩ := IntOp.andi_eq_one.mp h01
  refine ⟨fun i => real_of_abs_lt _ ?_, fun i => real_of_abs_lt _ ?_, fun i => real_of_abs_lt _ ?_⟩
  · exact Host.reduce_andi_all _ _ _ _ _ hx i
  · exact Host.reduce_andi_all _ _ _ _ _ hw i
  · exact Host.reduce_andi_all _ _ _ _ _ h2 i

end Cert.Pre_finite_inputs.Decode

end
-- ==== Proof.lean ====
/-
  An edge convolution with a neighbour maximum, fused weights against the plain formulation.

  For every point (b, n) the input holds 32 neighbour rows x[b, n, h, :] of 64 features, row 0 being the point itself.
  The reference builds the edge feature [x_h − x_0, x_h] of each neighbour, applies the 64 × 128 matrix W = [W₁ | W₂] and
  the bias, rectifies with slope 0.2 on the negative side, and takes the maximum over the neighbours. The kernel uses
      [x_h − x_0, x_h] · Wᵀ = x_h · (W₁ + W₂)ᵀ − x_0 · W₁ᵀ,
  forming (W₁ + W₂)ᵀ and W₁ᵀ once on the host and multiplying 1000 points' rows at a time on a 4 × 10 grid.

  On the extended reals the identity above is distributivity, which needs the entries of x and W to be real numbers: that is
  what the precondition gives (`Decode.real_of_pre`). The rest is reading: the kernel's stored entry (`Body.pay_apply`), its
  blocks tiling the result array (`Whole.final`), the reference's operations one by one (`RefValue.ref_eq`); both arrays are
  `Cert.EdgeMax.result` of the arguments. The rectifier and the maximum are the same functions on both sides and are
  never opened. The word-level program differs from its idealization by no rewrite, so that conjunct is trivial, and the
  three frames are the generated ones (the reference's being its run with the result dropped).
-/
import proofs.«118309_j57002805952868_2_alg».proof.Defs
import proofs.«118309_j57002805952868_2_alg».proof.Proof.Gen.Kernel
import proofs.«118309_j57002805952868_2_alg».proof.Proof.Gen.Kernel.Skeleton
import proofs.«118309_j57002805952868_2_alg».proof.Proof.Gen.Kernel.Launch
import proofs.«118309_j57002805952868_2_alg».proof.Proof.Gen.Kernel.Points
import proofs.«118309_j57002805952868_2_alg».proof.Proof.Gen.Kernel.Frame
import proofs.«118309_j57002805952868_2_alg».proof.Proof.Gen.KernelIdeal
import proofs.«118309_j57002805952868_2_alg».proof.Proof.Gen.KernelIdeal.Skeleton
import proofs.«118309_j57002805952868_2_alg».proof.Proof.Gen.KernelIdeal.Launch
import proofs.«118309_j57002805952868_2_alg».proof.Proof.Gen.KernelIdeal.Points
import proofs.«118309_j57002805952868_2_alg».proof.Proof.Gen.KernelIdeal.Frame
import proofs.«118309_j57002805952868_2_alg».proof.Proof.Gen.ReferenceIdeal
import proofs.«118309_j57002805952868_2_alg».proof.Proof.Gen.KernelIdeal.Value
import proofs.«118309_j57002805952868_2_alg».proof.Proof.Gen.ReferenceIdeal.Run
import proofs.«118309_j57002805952868_2_alg».proof.Proof.Gen.ReferenceIdeal.Read
import proofs.«118309_j57002805952868_2_alg».proof.Proof.Gen.Pre_finite_inputs
import proofs.«118309_j57002805952868_2_alg».proof.Proof.KernelValue
import proofs.«118309_j57002805952868_2_alg».proof.Proof.RefValue
import proofs.«118309_j57002805952868_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both result arrays are `result` of the arguments: the kernel's by its run, the reference's by its run read entry by
    entry, the arguments agreeing and, by the precondition, `x` and `W` holding real numbers. -/
theorem algebraic : Cert.algebraic_KernelIdeal_ReferenceIdeal := by
  intro m ρ m' ρ' hpre hagree
  refine ⟨fun c => Cert.EdgeMax.result (Cert.KernelIdeal.Arrays.Xm m c) (Cert.KernelIdeal.Arrays.Wm m c)
    (Cert.KernelIdeal.Arrays.Bm m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨hX, hW, -⟩ := Cert.Pre_finite_inputs.Decode.real_of_pre _ _ _ (hpre c)
  exact (Cert.ReferenceIdeal.Read.val_main_v14_eq _ _ _).trans (Cert.ReferenceIdeal.RefValue.ref_eq _ _ _ hX hW)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
